-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024x2 : Shape := ⟨4, ![16, 1024, 1024, 2]⟩
abbrev S16x1024x1024 : Shape := ⟨3, ![16, 1024, 1024]⟩
abbrev S_ : Shape := ⟨0, ![]⟩

class Facts : Prop where
  bcast_S_S16x1024x1024x2 : S_.BroadcastsInDim S16x1024x1024x2 (![] : Fin 0 → Fin S16x1024x1024x2.rank)
  reducesTo_S16x1024x1024x2_S_d0_1_2_3 : S16x1024x1024x2.ReducesTo [0, 1, 2, 3] S_
  h_S_ : 0 < S_.numel
  bcast_S_S16x1024x1024 : S_.BroadcastsInDim S16x1024x1024 (![] : Fin 0 → Fin S16x1024x1024.rank)
  reducesTo_S16x1024x1024_S_d0_1_2 : S16x1024x1024.ReducesTo [0, 1, 2] S_

variable [Facts]

def fn {F : FTy → Type} [FloatOps F] (main_arg0 : FVec F S16x1024x1024x2 .f32) (main_arg1 : FVec F S16x1024x1024 .f32) (main_arg2 : FVec F S16x1024x1024 .f32) : IVec S_ 1 :=
  let main_v0 : FVec F S16x1024x1024x2 .f32 := Host.absf main_arg0
  let main_cst : FVec F S_ .f32 := constant S_ .f32 0x7F800000#32
  let main_v1 : FVec F S16x1024x1024x2 .f32 := broadcastInDim S16x1024x1024x2 ![] bcast_S_S16x1024x1024x2 main_cst
  let main_v2 : IVec S16x1024x1024x2 1 := cmpf .olt main_v0 main_v1
  let main_c : IVec S_ 1 := constantI S_ 1 1#1
  let main_v3 : IVec S_ 1 := (fun x v => Host.reduce IntOp.andi x v reducesTo_S16x1024x1024x2_S_d0_1_2_3 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S16x1024x1024 .f32 := Host.absf main_arg2
  let main_cst_2 : FVec F S_ .f32 := constant S_ .f32 0x7F800000#32
  let main_v10 : FVec F S16x1024x1024 .f32 := broadcastInDim S16x1024x1024 ![] bcast_S_S16x1024x1024 main_cst_2
  let main_v11 : IVec S16x1024x1024 1 := cmpf .olt main_v9 main_v10
  let main_c_3 : IVec S_ 1 := constantI S_ 1 1#1
  let main_v12 : IVec S_ 1 := (fun x v => Host.reduce IntOp.andi x v reducesTo_S16x1024x1024_S_d0_1_2 h_S_) main_v11 main_c_3
  let main_v13 : IVec S_ 1 := andi main_v8 main_v12
  main_v13
-- ==== Kernel.lean ====
abbrev S16x1024x1024x2 : Shape := ⟨4, ![16, 1024, 1024, 2]⟩
abbrev S16x1024x1024 : Shape := ⟨3, ![16, 1024, 1024]⟩
abbrev S16x1x128 : Shape := ⟨3, ![16, 1, 128]⟩
abbrev S1x512x1024x2 : Shape := ⟨4, ![1, 512, 1024, 2]⟩
abbrev S1x512x1024 : Shape := ⟨3, ![1, 512, 1024]⟩
abbrev S1x1x128 : Shape := ⟨3, ![1, 1, 128]⟩
abbrev S1x1 : Shape := ⟨2, ![1, 1]⟩
abbrev S512x1024x2 : Shape := ⟨3, ![512, 1024, 2]⟩
abbrev S512x1024 : Shape := ⟨2, ![512, 1024]⟩
abbrev S512x1024x1 : Shape := ⟨3, ![512, 1024, 1]⟩
abbrev S1 : Shape := ⟨1, ![1]⟩
abbrev S1x1x1 : Shape := ⟨3, ![1, 1, 1]⟩
abbrev S1x128 : Shape := ⟨2, ![1, 128]⟩
abbrev S_ : Shape := ⟨0, ![]⟩

abbrev nBuf : Space → Nat
  | .hbm => 8
  | .vmem => 9
  | .smem => 0
  | _ => 0

abbrev bufTy : (tb : Table) → Fin (tcTables nBuf tb) → BufTy
  | .hbm, ⟨0, _⟩ => ⟨S16x1024x1024x2, .f32⟩
  | .hbm, ⟨1, _⟩ => ⟨S16x1024x1024, .f32⟩
  | .hbm, ⟨2, _⟩ => ⟨S16x1024x1024, .f32⟩
  | .hbm, ⟨3, _⟩ => ⟨S16x1x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S1x512x1024x2, .f32⟩
  | .local _ .vmem, ⟨1, _⟩ => ⟨S1x512x1024x2, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1x128, .f32⟩
  | .local _ .vmem, ⟨7, _⟩ => ⟨S1x1x128, .f32⟩
  | .local _ .vmem, ⟨8, _⟩ => ⟨S1x1, .f32⟩
  | _, _ => ⟨S16x1024x1024x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v32 : BitVec 1 := Scalar.cmpi .eq arg1 c1_i32
  let v33 : BitVec 32 := Scalar.extui v32
  let c0_i32_15 : BitVec 32 := 0#32
  let v34 : BitVec 1 := Scalar.cmpi .ne v33 c0_i32_15
  v34

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x512x1024x2_S1x512x1024x2_0_0_0_0 : ∀ a, (![0, 0, 0, 0] : Fin 4 → Nat) a + S1x512x1024x2.size a ≤ S1x512x1024x2.size a
  h_S1x512x1024x2 : 0 < S1x512x1024x2.numel
  shapeCasts_S1x512x1024x2_S512x1024x2 : S1x512x1024x2.ShapeCasts S512x1024x2
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  slices_S512x1024x2_o0_0_0_S512x1024x1 : S512x1024x2.Slices ![0, 0, 0] S512x1024x1
  shapeCasts_S512x1024x1_S512x1024 : S512x1024x1.ShapeCasts S512x1024
  slices_S512x1024x2_o0_0_1_S512x1024x1 : S512x1024x2.Slices ![0, 0, 1] S512x1024x1
  shapeCasts_S512x1024_S1x512x1024 : S512x1024.ShapeCasts S1x512x1024
  reduces_S1x512x1024_S1 : S1x512x1024.Reduces [1, 2] S1
  shapeCasts_S1_S1x1x1 : S1.ShapeCasts S1x1x1
  inpos_S1x1x1_p0_0_0 : ∀ a, (![0, 0, 0] : Fin 3 → Nat) a < S1x1x1.size a
  inpos_S1x1_p0_0 : ∀ a, (![0, 0] : Fin 2 → Nat) a < S1x1.size a
  iota_S1x128_d1_w32 : S1x128.Iotas .tc 32 [1]
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  reducesTo_S16x1x128_S_d0_1_2 : S16x1x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024x2.size a ≤ S16x1024x1024x2.size a
  hwx0_0 : ∀ i : grid0.Coords, EltTy.bits .f32 = 32 ∨ (Rect.block (s := S16x1024x1024x2) S1x512x1024x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S16x1024x1024.size a
  hwx0_1 : ∀ i : grid0.Coords, EltTy.bits .f32 = 32 ∨ (Rect.block (s := S16x1024x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S16x1024x1024.size a
  hwx0_2 : ∀ i : grid0.Coords, EltTy.bits .f32 = 32 ∨ (Rect.block (s := S16x1024x1024) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S16x1x128.size a
  hwx0_3 : ∀ i : grid0.Coords, EltTy.bits .f32 = 32 ∨ (Rect.block (s := S16x1x128) S1x1x128.size (cc0_transform_3 i) (hinb0_3 i)).WholeWords (EltTy.packing .f32)

variable [Facts₀]

abbrev win0_0 : Pipeline.Window sig grid0 :=
  Pipeline.Window.ofSpec (Memref.whole main_arg0) S1x512x1024x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16x1024x1024x2 : Shape := ⟨4, ![16, 1024, 1024, 2]⟩
abbrev S16x1024x1024 : Shape := ⟨3, ![16, 1024, 1024]⟩
abbrev S16x1024x1024x1 : Shape := ⟨4, ![16, 1024, 1024, 1]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16x1024x1024x2, .f32⟩
  | .hbm, ⟨1, _⟩ => ⟨S16x1024x1024, .f32⟩
  | .hbm, ⟨2, _⟩ => ⟨S16x1024x1024, .f32⟩
  | .hbm, ⟨3, _⟩ => ⟨S16x1024x1024x1, .f32⟩
  | .hbm, ⟨4, _⟩ => ⟨S16x1024x1024, .f32⟩
  | .hbm, ⟨5, _⟩ => ⟨S16x1024x1024x1, .f32⟩
  | .hbm, ⟨6, _⟩ => ⟨S16x1024x1024, .f32⟩
  | .hbm, ⟨7, _⟩ => ⟨S16x1024x1024, .f32⟩
  | .hbm, ⟨8, _⟩ => ⟨S16x1024x1024, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S16x1024x1024, .f32⟩
  | .hbm, ⟨14, _⟩ => ⟨S16x1024x1024, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | _, _ => ⟨S16x1024x1024x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  slices_S16x1024x1024x2_S16x1024x1024x1_0_0_0_0 : S16x1024x1024x2.Slices ![0, 0, 0, 0] S16x1024x1024x1
  shapeCasts_S16x1024x1024x1_S16x1024x1024 : S16x1024x1024x1.ShapeCasts S16x1024x1024
  slices_S16x1024x1024x2_S16x1024x1024x1_0_0_0_1 : S16x1024x1024x2.Slices ![0, 0, 0, 1] S16x1024x1024x1
  reducesTo_S16x1024x1024_S_d0_1_2 : S16x1024x1024.ReducesTo [0, 1, 2] S_
  h_S_ : 0 < S_.numel

variable [Facts₀]

class Facts : Prop extends Facts₀ where

variable [Facts]
-- ==== Proof.Pieces.lean ====
/-
  What one grid point leaves behind, as values. The body keeps a one-word running total in its scratch
  buffer. At the first row tile of an image it zeroes the word and then adds the tile's sum of squared
  errors to it; at the second row tile it adds that tile's sum to what the first left, and then writes the
  total into lane 0 of the image's 128-lane output row (zeros in the other lanes). The three lemmas below
  read the stores each of the two cases makes as the body's own arithmetic terms of the blocks it loaded:
  a later whole-buffer store hides the earlier ones, and a load after a whole-buffer store reads what was
  stored. They hold for any float interpretation.
-/
import proofs.«132276_j79061757985022_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- Zero offsets on two, three and four axes. -/
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- First row tile of an image: the scratch word ends at zero plus this tile's sum. -/
theorem scratch_A (c : Dev nD) (i : grid0.Coords) (a2 : Memref sig .tc .vmem S1x512x1024x2 .f32) (h2 : a2.IsWhole)
    (a3 : Memref sig .tc .vmem S1x512x1024 .f32) (h3 : a3.IsWhole) (a4 : Memref sig .tc .vmem S1x512x1024 .f32) (h4 : a4.IsWhole)
    (a5 : Memref sig .tc .vmem S1x1x128 .f32) (h5 : a5.IsWhole) (a6 : Memref sig .tc .vmem S1x1 .f32) (h6 : a6.IsWhole)
    (hc0 : cond0_0 i) (hc1 : ¬cond0_1 i)
    (x0 : Vec F S1x512x1024x2 .f32) (x1 : Vec F S1x512x1024 .f32) (x2 : Vec F S1x512x1024 .f32) :
    sout0_A_0 c i a2 h2 a3 h3 a4 h4 a5 h5 a6 h6 hc0 hc1 x0 x1 x2 = k0_pay2 x0 x1 x2 (k0_pay1 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S1x1) hz2, View.readCov_unit_zero (S := S1x1) _ hz2]
  simp only [View.readAt_eq_ld, h2.read_unread, h3.read_unread, h4.read_unread,
    View.ld_unit_zero (S := S1x512x1024x2) hz4, View.ld_unit_zero (S := S1x512x1024) hz3]

/-- Second row tile: the scratch word ends at what the first tile left plus this tile's sum. -/
theorem scratch_B (c : Dev nD) (i : grid0.Coords) (a2 : Memref sig .tc .vmem S1x512x1024x2 .f32) (h2 : a2.IsWhole)
    (a3 : Memref sig .tc .vmem S1x512x1024 .f32) (h3 : a3.IsWhole) (a4 : Memref sig .tc .vmem S1x512x1024 .f32) (h4 : a4.IsWhole)
    (a5 : Memref sig .tc .vmem S1x1x128 .f32) (h5 : a5.IsWhole) (a6 : Memref sig .tc .vmem S1x1 .f32) (h6 : a6.IsWhole)
    (hc0 : ¬cond0_0 i) (hc1 : cond0_1 i)
    (x0 : Vec F S1x512x1024x2 .f32) (x1 : Vec F S1x512x1024 .f32) (x2 : Vec F S1x512x1024 .f32) (xs : Vec F S1x1 .f32) :
    sout0_B_0 c i a2 h2 a3 h3 a4 h4 a5 h5 a6 h6 hc0 hc1 x0 x1 x2 xs = k0_pay2 x0 x1 x2 xs := by
  unfold sout0_B_0
  rw [View.read_writes_eq_canon _ _ _ (scover0_B_0 c i a2 h2 a3 h3 a4 h4 a5 h5 a6 h6 hc0 hc1 x0 x1 x2 xs)]
  unfold kernelRun0_B
  dsimp only
  sl_unfold_words
  rw [View.canon_unit_zero (S := S1x1) hz2]
  simp only [View.readAt_eq_ld, h2.read_unread, h3.read_unread, h4.read_unread, h6.read_unread,
    View.ld_unit_zero (S := S1x512x1024x2) hz4, View.ld_unit_zero (S := S1x512x1024) hz3,
    View.ld_unit_zero (S := S1x1) hz2]

/-- Second row tile: the output row it writes is that total in lane 0 and zeros elsewhere. -/
theorem row_B (c : Dev nD) (i : grid0.Coords) (a2 : Memref sig .tc .vmem S1x512x1024x2 .f32) (h2 : a2.IsWhole)
    (a3 : Memref sig .tc .vmem S1x512x1024 .f32) (h3 : a3.IsWhole) (a4 : Memref sig .tc .vmem S1x512x1024 .f32) (h4 : a4.IsWhole)
    (a5 : Memref sig .tc .vmem S1x1x128 .f32) (h5 : a5.IsWhole) (a6 : Memref sig .tc .vmem S1x1 .f32) (h6 : a6.IsWhole)
    (hc0 : ¬cond0_0 i) (hc1 : cond0_1 i)
    (x0 : Vec F S1x512x1024x2 .f32) (x1 : Vec F S1x512x1024 .f32) (x2 : Vec F S1x512x1024 .f32) (xs : Vec F S1x1 .f32) :
    out0_B_3 c i a2 h2 a3 h3 a4 h4 a5 h5 a6 h6 hc0 hc1 x0 x1 x2 xs = k0_pay3 (k0_pay2 x0 x1 x2 xs) := by
  unfold out0_B_3
  rw [View.read_writes_eq_canon _ _ _ (cover0_B_3 c i a2 h2 a3 h3 a4 h4 a5 h5 a6 h6 hc0 hc1 x0 x1 x2 xs)]
  unfold kernelRun0_B
  dsimp only
  sl_unfold_words
  rw [View.canon_unit_zero (S := S1x1x128) hz3, View.readCov_unit_zero (S := S1x1) _ hz2]
  simp only [View.readAt_eq_ld, h2.read_unread, h3.read_unread, h4.read_unread, h6.read_unread,
    View.ld_unit_zero (S := S1x512x1024x2) hz4, View.ld_unit_zero (S := S1x512x1024) hz3,
    View.ld_unit_zero (S := S1x1) hz2]

end Cert.KernelIdeal.Pieces

end
-- ==== Proof.Algebra.lean ====
/-
  The arithmetic that joins the two programs, on the extended reals, with no program in sight.

  There are 16 images of 1024 × 1024 pixels; a tile is 512 rows of one image, so an image is two tiles and
  pixel (b, 512·h + r, w) is position (r, w) of tile h of image b. For per-pixel terms `f` and `g` (the two channels'
  squared errors) one program forms, image by image, `(0 + (F₀ + G₀)) + (F₁ + G₁)` from the tiles' sums, adds the 16
  results and scales the total by `κ`; the other adds all of `f`, scales, adds all of `g`, scales, and adds the two.
  Sums of extended reals may be regrouped freely; scaling by `κ` distributes over a sum because `κ` is a nonnegative
  real, whatever the summands are (they may be infinite).
  The specification `mse` is stated here too. Also here: a 16 × 1 × 128 array holding a number in lane 0 of each row and zeros elsewhere sums to the sum of the 16
  numbers; and the f32 word 0x4B800000 is 2^24 = 16777216, the number of pixels.
-/
import Idealize.ShloMosaic.Lib.ValueIdx
import Idealize.ShloMosaic.PureOps.Ideal
import Idealize.ShloMosaic.PureOps.Ideal.Laws

noncomputable section

namespace Cert.MseAlgebra

open Idealize.ShloMosaic Idealize.ShloMosaic.ValueIdx

/-- The pixel grid of the 16 images, one tile of 512 rows, and the kernel's 16 output rows of 128 lanes. -/
abbrev Pix : Shape := ⟨3, ![16, 1024, 1024]⟩
abbrev Tile : Shape := ⟨3, ![1, 512, 1024]⟩
abbrev Rows : Shape := ⟨3, ![16, 1, 128]⟩
/-- The predictions: two channels per pixel. -/
abbrev Pred : Shape := ⟨4, ![16, 1024, 1024, 2]⟩

/-- The squared difference of two extended reals. -/
def sq (a b : EReal) : EReal := (a - b) * (a - b)

/-- Channel `k` of the prediction at a pixel. -/
def chan (i : Pix.Idx) (k : Fin 2) : Pred.Idx :=
  ix4 (⟨(i 0).val, (i 0).isLt⟩ : Fin 16) (⟨(i 1).val, (i 1).isLt⟩ : Fin 1024) (⟨(i 2).val, (i 2).isLt⟩ : Fin 1024) k

/-- The squared error of channel `k` against a target, at a pixel. -/
def err (P : Pred.Idx → EReal) (G : Pix.Idx → EReal) (k : Fin 2) (i : Pix.Idx) : EReal := sq (P (chan i k)) (G i)

/-- The reciprocal of the number of pixels. -/
def κ : EReal := ((1 / 16777216 : ℝ) : EReal)

/-- THE SPECIFICATION: the mean squared error of channel 0 against the first target plus that of channel 1 against
    the second, each mean a sum started from zero and scaled by the reciprocal of the number of pixels. -/
def mse (P : Pred.Idx → EReal) (C A : Pix.Idx → EReal) : EReal :=
  (0 + ∑ i : Pix.Idx, err P C 0 i) * κ + (0 + ∑ i : Pix.Idx, err P A 1 i) * κ

/-- The pixel at position `y` of row tile `h` of image `b`. -/
def pix (b : Fin 16) (h : Fin 2) (y : Tile.Idx) : Pix.Idx :=
  ix3 b ⟨512 * h.val + (y 1).val, by have h1 : (y 1).val < 512 := (y 1).isLt; have := h.isLt; omega⟩
    (⟨(y 2).val, (y 2).isLt⟩ : Fin 1024)

/-- Every pixel is exactly one position of one tile of one image. -/
def tileEquiv : Fin 16 × Fin 2 × Tile.Idx ≃ Pix.Idx where
  toFun q := pix q.1 q.2.1 q.2.2
  invFun i := (⟨(i 0).val, (i 0).isLt⟩,
    ⟨(i 1).val / 512, by have h1 : (i 1).val < 1024 := (i 1).isLt; omega⟩,
    ix3 (0 : Fin 1) ⟨(i 1).val % 512, by omega⟩ (⟨(i 2).val, (i 2).isLt⟩ : Fin 1024))
  left_inv := fun ⟨b, h, y⟩ => by
    have h1 : (y 1).val < 512 := (y 1).isLt
    have h0 : (y 0).val < 1 := (y 0).isLt
    refine Prod.ext rfl (Prod.ext (Fin.ext ?_) (funext fun a => Fin.ext ?_))
    · show (512 * h.val + (y 1).val) / 512 = h.val
      omega
    · match a with
      | ⟨0, _⟩ => show 0 = (y 0).val; omega
      | ⟨1, _⟩ => show (512 * h.val + (y 1).val) % 512 = (y 1).val; omega
      | ⟨2, _⟩ => rfl
  right_inv := fun i => funext fun a => Fin.ext (by
    match a with
    | ⟨0, _⟩ => rfl
    | ⟨1, _⟩ => show 512 * ((i 1).val / 512) + (i 1).val % 512 = (i 1).val; omega
    | ⟨2, _⟩ => rfl)

/-- A sum over all pixels, taken image by image and tile by tile. -/
theorem sum_pix (f : Pix.Idx → EReal) :
    ∑ i : Pix.Idx, f i = ∑ b : Fin 16, (∑ y : Tile.Idx, f (pix b 0 y) + ∑ y : Tile.Idx, f (pix b 1 y)) := by
  rw [← Equiv.sum_comp tileEquiv f, Fintype.sum_prod_type]
  refine Finset.sum_congr rfl fun b _ => ?_
  rw [Fintype.sum_prod_type, Fin.sum_univ_two]
  rfl

/-- THE LAW: the tile-by-tile running totals, added over the images and scaled, are the two scaled pixel sums added. -/
theorem mean_split (f g : Pix.Idx → EReal) (κ : EReal) (h0 : 0 ≤ κ) (ht : κ ≠ ⊤) :
    (0 + ∑ b : Fin 16, ((0 + (∑ y : Tile.Idx, f (pix b 0 y) + ∑ y : Tile.Idx, g (pix b 0 y)))
        + (∑ y : Tile.Idx, f (pix b 1 y) + ∑ y : Tile.Idx, g (pix b 1 y)))) * κ
      = (0 + ∑ i : Pix.Idx, f i) * κ + (0 + ∑ i : Pix.Idx, g i) * κ := by
  rw [← EReal.right_distrib_of_nonneg_of_ne_top h0 ht, sum_pix f, sum_pix g]
  congr 1
  simp only [zero_add]
  rw [← Finset.sum_add_distrib]
  exact Finset.sum_congr rfl fun b _ => add_add_add_comm _ _ _ _

/-- The image-by-image, tile-by-tile totals of both channels' squared errors, added and scaled, are the specification. -/
theorem tiles_eq_mse (P : Pred.Idx → EReal) (C A : Pix.Idx → EReal) :
    (0 + ∑ b : Fin 16, ((0 + (∑ y : Tile.Idx, err P C 0 (pix b 0 y) + ∑ y : Tile.Idx, err P A 1 (pix b 0 y)))
        + (∑ y : Tile.Idx, err P C 0 (pix b 1 y) + ∑ y : Tile.Idx, err P A 1 (pix b 1 y)))) * κ
      = mse P C A :=
  mean_split _ _ _ (EReal.coe_nonneg.mpr (by norm_num)) (EReal.coe_ne_top _)

/-- Row `b`, lane `l` of the output rows. -/
def rowEquiv : Fin 16 × Fin 128 ≃ Rows.Idx where
  toFun q := ix3 q.1 (0 : Fin 1) q.2
  invFun j := (⟨(j 0).val, (j 0).isLt⟩, ⟨(j 2).val, (j 2).isLt⟩)
  left_inv := fun ⟨_, _⟩ => rfl
  right_inv := fun j => funext fun a => Fin.ext (by
    match a with
    | ⟨0, _⟩ => rfl
    | ⟨1, _⟩ => show 0 = (j 1).val; have h1 : (j 1).val < 1 := (j 1).isLt; omega
    | ⟨2, _⟩ => rfl)

/-- Rows holding `s b` in lane 0 and zero in the other lanes add up to the sum of the `s b`. -/
theorem lane0_sum (R : Rows.Idx → EReal) (s : Fin 16 → EReal)
    (hR : ∀ (b : Fin 16) (l : Fin 128), R (ix3 b (0 : Fin 1) l) = if l.val = 0 then s b else 0) :
    ∑ j : Rows.Idx, R j = ∑ b : Fin 16, s b := by
  rw [← Equiv.sum_comp rowEquiv R, Fintype.sum_prod_type]
  refine Finset.sum_congr rfl fun b _ => ?_
  rw [Finset.sum_eq_single (0 : Fin 128)]
  · exact (hR b 0).trans (if_pos rfl)
  · intro l _ hl
    exact (hR b l).trans (if_neg fun h => hl (Fin.ext h))
  · intro h; exact absurd (Finset.mem_univ _) h

/-- The divisor both programs use is the number of pixels. -/
theorem ofBits_npix : Ideal.ofBits .f32 0x4B800000#32 = ((16777216 : ℝ) : EReal) := by
  simp [Ideal.ofBits, Ideal.ieee, -EReal.coe_mul]; norm_num

/-- Dividing by the number of pixels is scaling by its reciprocal, -/
theorem div_npix (s : EReal) : Ideal.div s (Ideal.ofBits .f32 0x4B800000#32) = s * κ := by
  rw [ofBits_npix]; exact Ideal.div_coe (by norm_num) s

end Cert.MseAlgebra

end
-- ==== Proof.Payload.lean ====
/-
  The body's arithmetic, read at the extended reals, entry by entry.

  A grid point loads one 512-row tile of one image: the prediction tile `p` of shape [1, 512, 1024, 2] (two channels)
  and the two target tiles `c`, `a` of shape [1, 512, 1024]. For channel `k` the body slices `p[..., k]`, subtracts the
  target, squares, and adds up all 512 · 1024 entries; it adds the two channel sums, and adds that to the running total.
  Below: a channel at tile position (r, w) is `p (0, r, w, k)` (the layout operations only re-index); a channel's sum is
  the sum over the tile of the squared differences; the new running total is the old one plus both channel sums; and the
  output row has the total in lane 0 and zero in the other 127 lanes.
-/
import proofs.«132276_j79061757985022_1_alg».proof.Proof.Gen.KernelIdeal.Frame
import Idealize.ShloMosaic.Lib.Pipeline.Value
import Idealize.ShloMosaic.Lib.Tactic
import Idealize.ShloMosaic.Lib.ValueIdx
import Idealize.ShloMosaic.Lib.ValueLayout
import Idealize.ShloMosaic.PureOps.Ideal.Laws
import proofs.«132276_j79061757985022_1_alg».proof.Proof.Algebra

noncomputable section

open Idealize.ShloMosaic Idealize.ShloMosaic.TcCoe Idealize.SL.Sem
open Idealize.ShloMosaic.Pipeline (Dat)

namespace Cert.KernelIdeal.Payload

open Cert.KernelIdeal Cert.KernelIdeal.Gen Idealize.ShloMosaic.ValueIdx
open Cert.MseAlgebra (sq)

/-- The sum over one tile of the squared differences between channel `k` of the prediction tile and a target tile. -/
def tileSq (p : Vec Ideal S1x512x1024x2 .f32) (g : Vec Ideal S1x512x1024 .f32) (k : Fin 2) : EReal :=
  ∑ y : S1x512x1024.Idx, sq (p (ix4 (0 : Fin 1) (y 1) (y 2) k)) (g (ix3 (0 : Fin 1) (y 1) (y 2)))

/-- Channel `k` of the prediction tile at tile position (r, w): dropping the leading unit axis, slicing the last axis
    at `k` and dropping the now-unit last axis only re-index. -/
theorem chan_apply (p : Vec Ideal S1x512x1024x2 .f32) (k : Fin 2) (off : Fin 3 → Nat) (hoff : off = ![0, 0, k.val])
    (h1 : S1x512x1024x2.ShapeCasts S512x1024x2) (h2 : S512x1024x2.Slices off S512x1024x1)
    (h3 : S512x1024x1.ShapeCasts S512x1024) (r : Fin 512) (w : Fin 1024) :
    shapeCast S512x1024 (extractStridedSlice S512x1024x1 off (shapeCast S512x1024x2 p h1) h2) h3 (ix2 r w)
      = p (ix4 (0 : Fin 1) r w k) := by
  subst hoff
  refine (shapeCast_apply _ h3 (ix2 r w) (ix3 r w (0 : Fin 1)) ?_).trans ?_
  · rw [Shape.rowMajor_val_three, Shape.rowMajor_val_two]
    show (r.val * 1024 + w.val) * 1 + 0 = r.val * 1024 + w.val
    omega
  refine (extractStridedSlice_apply _ _ h2 (ix3 r w (0 : Fin 1)) (ix3 r w k) (fun a => ?_)).trans ?_
  · match a with
    | ⟨0, _⟩ => show r.val = 0 + r.val; omega
    | ⟨1, _⟩ => show w.val = 0 + w.val; omega
    | ⟨2, _⟩ => show k.val = k.val + 0; omega
  exact shapeCast_1abc_abc_apply p h1 r w k

/-- One channel's contribution: the lane reduction over both tile axes into a one-entry vector, read at its entry,
    is the sum over the tile of the squared differences. -/
theorem chan_sum (p : Vec Ideal S1x512x1024x2 .f32) (g : Vec Ideal S1x512x1024 .f32) (k : Fin 2) (off : Fin 3 → Nat)
    (hoff : off = ![0, 0, k.val])
    (h1 : S1x512x1024x2.ShapeCasts S512x1024x2) (h2 : S512x1024x2.Slices off S512x1024x1)
    (h3 : S512x1024x1.ShapeCasts S512x1024) (h4 : S1x512x1024.ShapeCasts S512x1024)
    (h5 : S512x1024.ShapeCasts S1x512x1024) (h6 : S1x512x1024.Reduces [1, 2] S1) (hφ : FKind.Formats .f32)
    (hacc : (0x00000000#32 : BitVec 32) = FKind.add.neutral .f32 hφ) (h7 : S1.ShapeCasts S1x1x1)
    (h8 : ∀ a, (![0, 0, 0] : Fin 3 → Nat) a < S1x1x1.size a) :
    extractAt ![0, 0, 0] (shapeCast S1x1x1 (multiReduction (F := Ideal) .add [1, 2] S1
        (shapeCast S1x512x1024
          (mulf (subf (shapeCast S512x1024 (extractStridedSlice S512x1024x1 off (shapeCast S512x1024x2 p h1) h2) h3)
              (shapeCast S512x1024 g h4))
            (subf (shapeCast S512x1024 (extractStridedSlice S512x1024x1 off (shapeCast S512x1024x2 p h1) h2) h3)
              (shapeCast S512x1024 g h4))) h5)
        0x00000000#32 h6 hφ hacc) h7) h8
      = tileSq p g k := by
  show multiReduction (F := Ideal) .add [1, 2] S1 _ 0x00000000#32 h6 hφ hacc _ = _
  refine (Ideal.multiReduction_add_total _ _ h6 (fun b => by fin_cases b; rfl) hφ hacc _).trans ?_
  unfold tileSq
  refine Finset.sum_congr rfl fun y _ => ?_
  refine (congrArg _ (eq_ix3 y)).trans ?_
  refine (shapeCast_ab_1ab_apply _ h5 (y 0) (y 1) (y 2)).trans ?_
  have e := congrArg₂ (fun u v : EReal => u - v) (chan_apply p k off hoff h1 h2 h3 (y 1) (y 2))
    (shapeCast_1ab_ab_apply g h4 (y 1) (y 2))
  exact congrArg₂ (fun u v : EReal => u * v) e e

/-- The running total after a point: what it was before plus the two channels' sums over the point's tile. -/
theorem pay2_apply (p : Vec Ideal S1x512x1024x2 .f32) (c a : Vec Ideal S1x512x1024 .f32) (acc : Vec Ideal S1x1 .f32)
    (j : S1x1.Idx) :
    k0_pay2 (F := Ideal) p c a acc j = acc j + (tileSq p c 0 + tileSq p a 1) := by
  unfold k0_pay2
  dsimp only
  refine (congrFun (shapeCast_self _ _) j).trans ?_
  show acc j + (_ + _) = _
  refine congrArg (fun u : EReal => acc j + u) ?_
  exact congrArg₂ (fun u v : EReal => u + v) (chan_sum p c 0 _ rfl _ _ _ _ _ _ _ _ _ _) (chan_sum p a 1 _ rfl _ _ _ _ _ _ _ _ _ _)

/-- The zero the body resets the running total to. -/
theorem pay1_apply (j : S1x1.Idx) : k0_pay1 (F := Ideal) j = 0 := by
  unfold k0_pay1
  refine (congrFun (shapeCast_self _ _) j).trans ?_
  exact Ideal.ofBits_zero_f32

/-- Lane `l` of the lane counter equals zero exactly when `l` is zero. -/
theorem lane_is_zero : ∀ l : Fin 128, IntOp.cmpi .eq (BitVec.ofNat 32 l.val) 0#32 = if l.val = 0 then 1#1 else 0#1 := by
  decide +kernel

/-- The output row: the running total in lane 0, zero in the other lanes. -/
theorem pay3_apply (v : Vec Ideal S1x1 .f32) (b u : Fin 1) (l : Fin 128) :
    k0_pay3 (F := Ideal) v (ix3 b u l) = if l.val = 0 then v (ix2 (0 : Fin 1) (0 : Fin 1)) else 0 := by
  unfold k0_pay3
  dsimp only
  refine (shapeCast_ab_1ab_apply _ _ b u l).trans ?_
  show Scalar.select (IntOp.cmpi .eq (iota .tc S1x128 32 [1] _ (ix2 u l)) 0#32) (extractAt ![0, 0] v _)
    (Ideal.ofBits .f32 0x00000000#32) = _
  rw [iota_single_apply, Ideal.ofBits_zero_f32]
  show Scalar.select (IntOp.cmpi .eq (BitVec.ofNat 32 l.val) 0#32) _ _ = _
  rw [lane_is_zero l]
  by_cases hl : l.val = 0
  · rw [if_pos hl, if_pos hl]
    exact (select_one _ _).trans (congrArg v (funext fun a => by fin_cases a <;> rfl))
  · rw [if_neg hl, if_neg hl]; exact select_zero _ _

end Cert.KernelIdeal.Payload

end
-- ==== Proof.Chain.lean ====
/-
  The running total, point by point. The grid visits image b's first row tile at point 2b and its second at point
  2b + 1. After an even point the scratch word holds zero plus that tile's error sum; after the odd point that follows
  it holds that plus the second tile's error sum, and the output row written there has this total in lane 0. An image
  has only two tiles, so the word after an odd point is two steps from zero and no induction over the grid is needed.
-/
import proofs.«132276_j79061757985022_1_alg».proof.Proof.Gen.KernelIdeal.Frame
import Idealize.ShloMosaic.Lib.Pipeline.Value
import Idealize.ShloMosaic.Lib.Tactic
import Idealize.ShloMosaic.Lib.ValueIdx
import proofs.«132276_j79061757985022_1_alg».proof.Proof.Pieces
import proofs.«132276_j79061757985022_1_alg».proof.Proof.Payload

noncomputable section

open Idealize.ShloMosaic Idealize.ShloMosaic.TcCoe Idealize.SL.Sem
open Idealize.ShloMosaic.Pipeline (Dat)

namespace Cert.KernelIdeal.Chain

open Cert.KernelIdeal Cert.KernelIdeal.Gen Idealize.ShloMosaic.ValueIdx
open Cert.KernelIdeal.Pieces Cert.KernelIdeal.Payload

section AnyFloat
variable {F : FTy → Type} [FloatOps F]
variable (m : (ℓ : Loc nD τ sig) → Buf (Elt F) ℓ)

/-- The point before an odd point. -/
def prev (t : Fin cfg0.N) : Fin cfg0.N := ⟨t.val - 1, Nat.lt_of_le_of_lt (Nat.sub_le _ _) t.isLt⟩

/-- After an even point: the scratch word is the body's accumulation of this point's blocks onto the reset value. -/
theorem scratch_even (c : Dev nD) (t : Fin cfg0.N) (h0 : t.val % 2 = 0) :
    (outsAt0 m c t.val t.isLt).2 = k0_pay2 (iblk m c 0 t) (iblk m c 1 t) (iblk m c 2 t) (k0_pay1 (F := F)) := by
  have h1 : ¬t.val % 2 = 1 := by omega
  rw [outsAt0_A m c t h0 h1]
  exact scratch_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (iblk m c 0 t) (iblk m c 1 t) (iblk m c 2 t)

/-- After an odd point: the scratch word is the accumulation of this point's blocks onto what the point before left, -/
theorem scratch_odd (c : Dev nD) (t : Fin cfg0.N) (h1 : t.val % 2 = 1) :
    (outsAt0 m c t.val t.isLt).2
      = k0_pay2 (iblk m c 0 t) (iblk m c 1 t) (iblk m c 2 t) (outsAt0 m c (prev t).val (prev t).isLt).2 := by
  have h0 : ¬t.val % 2 = 0 := by omega
  rw [outsAt0_B m c t h0 h1]
  exact scratch_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t) (outsAt0 m c (t.val - 1) (Nat.lt_of_le_of_lt (Nat.sub_le _ _) t.isLt)).2

/-- and the output row it writes is that word spread over the lanes by the body's last step. -/
theorem row_odd (c : Dev nD) (t : Fin cfg0.N) (h1 : t.val % 2 = 1) :
    (outsAt0 m c t.val t.isLt).1
      = k0_pay3 (k0_pay2 (iblk m c 0 t) (iblk m c 1 t) (iblk m c 2 t) (outsAt0 m c (prev t).val (prev t).isLt).2) := by
  have h0 : ¬t.val % 2 = 0 := by omega
  rw [outsAt0_B m c t h0 h1]
  exact row_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t) (outsAt0 m c (t.val - 1) (Nat.lt_of_le_of_lt (Nat.sub_le _ _) t.isLt)).2

end AnyFloat

section AtIdeal
variable (m : (ℓ : Loc nD τ sig) → Buf (Elt Ideal) ℓ)

/-- Both channels' error sums over the tile a point loads. -/
def tileErr (c : Dev nD) (t : Fin cfg0.N) : EReal :=
  tileSq (iblk m c 0 t) (iblk m c 1 t) 0 + tileSq (iblk m c 0 t) (iblk m c 2 t) 1

/-- The output row written at an odd point: lane 0 holds zero plus the first tile's error sum plus the second's,
    every other lane zero. -/
theorem row_value (c : Dev nD) (t : Fin cfg0.N) (h1 : t.val % 2 = 1) (b u : Fin 1) (l : Fin 128) :
    (outsAt0 m c t.val t.isLt).1 (ix3 b u l)
      = if l.val = 0 then (0 + tileErr m c (prev t)) + tileErr m c t else 0 := by
  have hp : (prev t).val % 2 = 0 := by show (t.val - 1) % 2 = 0; omega
  rw [row_odd m c t h1]
  refine (pay3_apply _ b u l).trans ?_
  refine if_congr Iff.rfl ?_ rfl
  refine (pay2_apply (iblk m c 0 t) (iblk m c 1 t) (iblk m c 2 t) _ _).trans ?_
  refine congrArg (fun v : EReal => v + tileErr m c t) ?_
  rw [scratch_even m c (prev t) hp]
  refine (pay2_apply (iblk m c 0 (prev t)) (iblk m c 1 (prev t)) (iblk m c 2 (prev t)) _ _).trans ?_
  exact congrArg (fun v : EReal => v + tileErr m c (prev t)) (pay1_apply _)

end AtIdeal

end Cert.KernelIdeal.Chain

end
-- ==== Proof.KernelValue.lean ====
/-
  What the kernel's program returns, at the extended reals.

  The region fills a 16 × 1 × 128 array: row b is written once, at the grid's point 2b + 1, and holds image b's total
  squared error of both channels in lane 0 (zero plus the first row tile's sums, plus the second's) and zeros in the
  other lanes. A tile's block of an input array is that array read at the tile's pixels, so the totals are sums of the
  per-pixel errors of the argument arrays. After the region the program adds up the whole array from zero and divides by
  the number of pixels: the rows' zeros drop out, and what is left is the 16 images' totals added and scaled, which is
  the specification `mse` of the argument arrays.
-/
import proofs.«132276_j79061757985022_1_alg».proof.Proof.Gen.KernelIdeal.Frame
import Idealize.ShloMosaic.Lib.Pipeline.Value
import Idealize.ShloMosaic.Lib.Tactic
import Idealize.ShloMosaic.Lib.ValueIdx
import Idealize.ShloMosaic.Lib.StableHlo.Run
import Idealize.ShloMosaic.PureOps.Ideal.Laws
import proofs.«132276_j79061757985022_1_alg».proof.Proof.Chain
import proofs.«132276_j79061757985022_1_alg».proof.Proof.Algebra

noncomputable section

open Idealize.ShloMosaic Idealize.ShloMosaic.TcCoe Idealize.SL.Sem
open Idealize.ShloMosaic.Pipeline (Dat)

namespace Cert.KernelIdeal.KernelValue

open Cert.KernelIdeal Cert.KernelIdeal.Gen Idealize.ShloMosaic.ValueIdx
open Cert.KernelIdeal.Payload Cert.KernelIdeal.Chain Cert.MseAlgebra

variable (m : (ℓ : Loc nD τ sig) → Buf (Elt Ideal) ℓ) (ρ : Dev nD → PrngReg)

/-- The three argument arrays on core `c`, as functions of a pixel. -/
abbrev argP (c : Dev nD) : Pred.Idx → EReal := m ((c : Thread nD τ).loc main_arg0)
abbrev argC (c : Dev nD) : Pix.Idx → EReal := m ((c : Thread nD τ).loc main_arg1)
abbrev argA (c : Dev nD) : Pix.Idx → EReal := m ((c : Thread nD τ).loc main_arg2)

/-- Which block of each array a grid point works on: image (point / 2), row tile (point mod 2) of the inputs; row
    (point / 2) of the output. Decided over the 32 points. -/
theorem idx_facts : ∀ t : Fin cfg0.N,
    win0_0.index t (0 : Fin 4) = t.val / 2 ∧ win0_0.index t (1 : Fin 4) = t.val % 2
    ∧ win0_0.index t (2 : Fin 4) = 0 ∧ win0_0.index t (3 : Fin 4) = 0
    ∧ win0_1.index t (0 : Fin 3) = t.val / 2 ∧ win0_1.index t (1 : Fin 3) = t.val % 2 ∧ win0_1.index t (2 : Fin 3) = 0
    ∧ win0_2.index t (0 : Fin 3) = t.val / 2 ∧ win0_2.index t (1 : Fin 3) = t.val % 2 ∧ win0_2.index t (2 : Fin 3) = 0
    ∧ win0_3.index t (0 : Fin 3) = t.val / 2 ∧ win0_3.index t (1 : Fin 3) = 0 ∧ win0_3.index t (2 : Fin 3) = 0 :=
  (by decide +kernel : ∀ t : Fin grid0.N, _)

/-- The prediction block of row tile `h` of image `b`, at a tile position and a channel, is the predictions at that pixel. -/
theorem blkP (c : Dev nD) (t : Fin cfg0.N) (b : Fin 16) (h : Fin 2) (ht : t.val = 2 * b.val + h.val) (y : Tile.Idx)
    (k : Fin 2) :
    (iblk m c 0 t : Vec Ideal S1x512x1024x2 .f32) (ix4 (0 : Fin 1) (y 1) (y 2) k) = argP m c (chan (pix b h y) k) := by
  obtain ⟨e0, e1, e2, e3, -⟩ := idx_facts t
  show m ((c : Thread nD τ).loc main_arg0) (((cfg0.win 0).blk t).view.emb (ix4 (0 : Fin 1) (y 1) (y 2) k)) = _
  refine congrArg (m ((c : Thread nD τ).loc main_arg0)) (funext fun a => Fin.ext ?_)
  match a with
  | ⟨0, _⟩ => show win0_0.index t (0 : Fin 4) * 1 + 1 * 0 = b.val; omega
  | ⟨1, _⟩ => show win0_0.index t (1 : Fin 4) * 512 + 1 * (y 1).val = 512 * h.val + (y 1).val; omega
  | ⟨2, _⟩ => show win0_0.index t (2 : Fin 4) * 1024 + 1 * (y 2).val = (y 2).val; omega
  | ⟨3, _⟩ => show win0_0.index t (3 : Fin 4) * 2 + 1 * k.val = k.val; omega

/-- The first target's block at a tile position is the first target at that pixel. -/
theorem blkC (c : Dev nD) (t : Fin cfg0.N) (b : Fin 16) (h : Fin 2) (ht : t.val = 2 * b.val + h.val) (y : Tile.Idx) :
    (iblk m c 1 t : Vec Ideal S1x512x1024 .f32) (ix3 (0 : Fin 1) (y 1) (y 2)) = argC m c (pix b h y) := by
  obtain ⟨-, -, -, -, e0, e1, e2, -⟩ := idx_facts t
  show m ((c : Thread nD τ).loc main_arg1) (((cfg0.win 1).blk t).view.emb (ix3 (0 : Fin 1) (y 1) (y 2))) = _
  refine congrArg (m ((c : Thread nD τ).loc main_arg1)) (funext fun a => Fin.ext ?_)
  match a with
  | ⟨0, _⟩ => show win0_1.index t (0 : Fin 3) * 1 + 1 * 0 = b.val; omega
  | ⟨1, _⟩ => show win0_1.index t (1 : Fin 3) * 512 + 1 * (y 1).val = 512 * h.val + (y 1).val; omega
  | ⟨2, _⟩ => show win0_1.index t (2 : Fin 3) * 1024 + 1 * (y 2).val = (y 2).val; omega

/-- The second target's likewise. -/
theorem blkA (c : Dev nD) (t : Fin cfg0.N) (b : Fin 16) (h : Fin 2) (ht : t.val = 2 * b.val + h.val) (y : Tile.Idx) :
    (iblk m c 2 t : Vec Ideal S1x512x1024 .f32) (ix3 (0 : Fin 1) (y 1) (y 2)) = argA m c (pix b h y) := by
  obtain ⟨-, -, -, -, -, -, -, e0, e1, e2, -⟩ := idx_facts t
  show m ((c : Thread nD τ).loc main_arg2) (((cfg0.win 2).blk t).view.emb (ix3 (0 : Fin 1) (y 1) (y 2))) = _
  refine congrArg (m ((c : Thread nD τ).loc main_arg2)) (funext fun a => Fin.ext ?_)
  match a with
  | ⟨0, _⟩ => show win0_2.index t (0 : Fin 3) * 1 + 1 * 0 = b.val; omega
  | ⟨1, _⟩ => show win0_2.index t (1 : Fin 3) * 512 + 1 * (y 1).val = 512 * h.val + (y 1).val; omega
  | ⟨2, _⟩ => show win0_2.index t (2 : Fin 3) * 1024 + 1 * (y 2).val = (y 2).val; omega

/-- So a point's tile sums are the sums of the argument arrays' per-pixel errors over that tile's pixels. -/
theorem tileErr_eq (c : Dev nD) (t : Fin cfg0.N) (b : Fin 16) (h : Fin 2) (ht : t.val = 2 * b.val + h.val) :
    tileErr m c t = ∑ y : Tile.Idx, err (argP m c) (argC m c) 0 (pix b h y)
      + ∑ y : Tile.Idx, err (argP m c) (argA m c) 1 (pix b h y) := by
  unfold tileErr tileSq
  refine congrArg₂ (fun u v : EReal => u + v) (Finset.sum_congr rfl fun y _ => ?_) (Finset.sum_congr rfl fun y _ => ?_)
  · exact congrArg₂ sq (blkP m c t b h ht y 0) (blkC m c t b h ht y)
  · exact congrArg₂ sq (blkP m c t b h ht y 1) (blkA m c t b h ht y)

/-- Image `b`'s total: zero plus its first row tile's sums, plus its second's. -/
def rowTotal (c : Dev nD) (b : Fin 16) : EReal :=
  (0 + (∑ y : Tile.Idx, err (argP m c) (argC m c) 0 (pix b 0 y) + ∑ y : Tile.Idx, err (argP m c) (argA m c) 1 (pix b 0 y)))
    + (∑ y : Tile.Idx, err (argP m c) (argC m c) 0 (pix b 1 y) + ∑ y : Tile.Idx, err (argP m c) (argA m c) 1 (pix b 1 y))

/-- The array the region leaves: each image's total in lane 0 of its row, zeros elsewhere. -/
def rowsArr (c : Dev nD) : Rows.Idx → EReal := fun j =>
  if (j 2).val = 0 then rowTotal m c ⟨(j 0).val, (j 0).isLt⟩ else 0

/-- What an odd point writes back is its row of that array. -/
theorem flushed_eq (c : Dev nD) (t : Fin cfg0.N) (hf : (cfg0.win 3).flush t = true) :
    (dats m 0 c).flushed 3 t = ((cfg0.win 3).blk t).view.read (Elt Ideal) (rowsArr m c) := by
  have h1 : t.val % 2 = 1 := (flush0_3 t).mp hf
  have hN : t.val < 32 := lt_of_lt_of_eq t.isLt (show cfg0.N = 32 from N_0)
  obtain ⟨-, -, -, -, -, -, -, -, -, -, e0, e1, e2⟩ := idx_facts t
  show (cfg0.win 3).cut (grid0.coords t) ((dats m 0 c).after 3 t) = _
  rw [after0_3]
  funext y
  rw [View.read_apply]
  have h0 : (y 0).val < 1 := (y 0).isLt
  have hy1 : (y 1).val < 1 := (y 1).isLt
  have hemb : ((cfg0.win 3).blk t).view.emb y
      = (ix3 (⟨t.val / 2, by omega⟩ : Fin 16) (0 : Fin 1) (⟨(y 2).val, (y 2).isLt⟩ : Fin 128) : Rows.Idx) := by
    funext a
    apply Fin.ext
    match a with
    | ⟨0, _⟩ => show win0_3.index t (0 : Fin 3) * 1 + 1 * (y 0).val = t.val / 2; omega
    | ⟨1, _⟩ => show win0_3.index t (1 : Fin 3) * 1 + 1 * (y 1).val = 0; omega
    | ⟨2, _⟩ => show win0_3.index t (2 : Fin 3) * 128 + 1 * (y 2).val = (y 2).val; omega
  rw [hemb]
  show (outsAt0 m c t.val t.isLt).1 y = _
  refine (congrArg _ (eq_ix3 y)).trans ?_
  refine (row_value m c t h1 (y 0) (y 1) (y 2)).trans ?_
  unfold rowsArr
  refine if_congr Iff.rfl ?_ rfl
  unfold rowTotal
  rw [tileErr_eq m c (prev t) ⟨t.val / 2, by omega⟩ 0 (by show t.val - 1 = 2 * (t.val / 2) + 0; omega),
    tileErr_eq m c t ⟨t.val / 2, by omega⟩ 1 (by show t.val = 2 * (t.val / 2) + 1; omega)]

/-- An entry of the output array is in a point's block iff each coordinate is in the block's range on its axis. -/
theorem mem_blk (t : Fin cfg0.N) (i : Rows.Idx) :
    i ∈ ((cfg0.win 3).blk t).view.set ↔ ∀ a : Fin 3, win0_3.index t a * S1x1x128.size a ≤ (i a).val
      ∧ (i a).val < win0_3.index t a * S1x1x128.size a + S1x1x128.size a := by
  show i ∈ ((View.whole main_v0).slice (win0_3.rect t)).set ↔ _
  rw [View.set_slice_whole, Rect.mem_set_unit]
  exact Iff.rfl

/-- Row `b` is written back at point 2b + 1, so every entry is in some written block. -/
theorem cover (i : Rows.Idx) : ∃ t : Fin cfg0.N, (cfg0.win 3).flush t = true ∧ i ∈ ((cfg0.win 3).blk t).view.set := by
  have hi0 : (i 0).val < 16 := (i 0).isLt
  have hi1 : (i 1).val < 1 := (i 1).isLt
  have hi2 : (i 2).val < 128 := (i 2).isLt
  let t : Fin cfg0.N := ⟨2 * (i 0).val + 1, lt_of_lt_of_eq (by omega : 2 * (i 0).val + 1 < 32) (show (32 : ℕ) = cfg0.N from N_0.symm)⟩
  have htv : t.val = 2 * (i 0).val + 1 := rfl
  obtain ⟨-, -, -, -, -, -, -, -, -, -, e0, e1, e2⟩ := idx_facts t
  refine ⟨t, (flush0_3 t).mpr (by omega), ?_⟩
  rw [mem_blk]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 1 ≤ (i 1).val ∧ (i 1).val < win0_3.index t (1 : Fin 3) * 1 + 1
    omega
  | ⟨2, _⟩ =>
    show win0_3.index t (2 : Fin 3) * 128 ≤ (i 2).val ∧ (i 2).val < win0_3.index t (2 : Fin 3) * 128 + 128
    omega

/-- The output array after the region. -/
theorem final_rows (c : Dev nD) : (dats m 0 c).arrAt 3 cfg0.N = rowsArr m c :=
  (dats m 0 c).arrAt_eq_of_cover 3 (rowsArr m c) (fun t hf => flushed_eq m c t hf) (cover)

/-- The program's result: the host's sum of that array from zero, divided by the number of pixels, is the specification. -/
theorem tail_eq (c : Dev nD) :
    Pipeline.afterTail₀ cfgs (dats m) 0 (V0 m) [hostOps1] c main_v2 = fun _ => mse (argP m c) (argC m c) (argA m c) := by
  unfold Pipeline.afterTail₀
  show StableHlo.after hostOps1 _ (Proc.devRef .tc main_v2) = _
  after_results
  have hw : Pipeline.withArrays (cfgs 0).spec c (V0 m c) (fun w => (dats m 0 c).arrAt w (cfgs 0).N)
      (Proc.devRef .tc main_v0) = rowsArr m c :=
    (Pipeline.withArrays_arr spec0 launch0.win.arr_inj c (V0 m c) (fun w => (dats m 0 c).arrAt w cfg0.N) 3).trans
      (final_rows m c)
  rw [hw]
  funext i
  show Ideal.div (Host.reduceAdd (F := Ideal) (rowsArr m c) (constant S_ .f32 0x00000000#32)
    reducesTo_S16x1x128_S_d0_1_2 h_S_ i) (Ideal.ofBits .f32 0x4B800000#32) = _
  rw [div_npix]
  have hsum : Host.reduceAdd (F := Ideal) (rowsArr m c) (constant S_ .f32 0x00000000#32)
      reducesTo_S16x1x128_S_d0_1_2 h_S_ i = 0 + ∑ j : Rows.Idx, rowsArr m c j := by
    simp only [Host.reduceAdd, Ideal.hostReduceAdd_def]
    refine (Ideal.hostReduceAdd_total reducesTo_S16x1x128_S_d0_1_2 (fun b => b.elim0) (rowsArr m c) _ i).trans ?_
    exact congrArg (fun z : EReal => z + ∑ j : Rows.Idx, rowsArr m c j) Ideal.ofBits_zero_f32
  rw [hsum, lane0_sum (rowsArr m c) (rowTotal m c) (fun b l => rfl)]
  exact tiles_eq_mse _ _ _

/-- THE RUN: every weakly fair execution of the kernel's program terminates with its result at the specification of the
    argument arrays, and the argument arrays unchanged. -/
theorem run : θ_run defs (onTc (τ := τ) (main (F := Ideal))) ⟨m, fun _ => 0, ρ⟩ fun r => ∀ c : Dev nD,
      r.2.mem ((c : Thread nD τ).loc main_v2) = (fun _ => mse (argP m c) (argC m c) (argA m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v2 (Pipeline.mem_restRefs_of main_v2 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.KernelValue

end
-- ==== Proof.RefSide.lean ====
/-
  The reference, read at the extended reals: it slices channel 0 and channel 1 out of the predictions, subtracts the
  targets, squares, adds up all pixels from zero, divides each sum by the number of pixels and adds the two quotients.
  The slice and the reshape that follows it only re-index (pixel (b, r, w) of channel k is entry (b, r, w, k)), a quotient
  by the number of pixels is a product with its reciprocal, and so the result is the specification `mse`.
-/
import proofs.«132276_j79061757985022_1_alg».proof.Proof.Gen.ReferenceIdeal.Read
import proofs.«132276_j79061757985022_1_alg».proof.Proof.Algebra

noncomputable section

namespace Cert.ReferenceIdeal.RefSide

open Cert.ReferenceIdeal Cert.ReferenceIdeal.Read Idealize.ShloMosaic Idealize.ShloMosaic.ValueIdx Cert.MseAlgebra

/-- The entry of the predictions that the channel-0 slice, reshaped, reads at a pixel. -/
theorem chan0_idx (j : S16x1024x1024.Idx) : idx_main_v0 (idx_main_v1 j) = chan j 0 := by
  have h0 : (j 0).val < 16 := (j 0).isLt
  have h1 : (j 1).val < 1024 := (j 1).isLt
  have h2 : (j 2).val < 1024 := (j 2).isLt
  funext a
  apply Fin.ext
  match a with
  | ⟨0, _⟩ => show (((j 0).val * 1024 + (j 1).val) * 1024 + (j 2).val) / 1048576 = (j 0).val; omega
  | ⟨1, _⟩ => show (((j 0).val * 1024 + (j 1).val) * 1024 + (j 2).val) / 1024 % 1024 = (j 1).val; omega
  | ⟨2, _⟩ => show (((j 0).val * 1024 + (j 1).val) * 1024 + (j 2).val) / 1 % 1024 = (j 2).val; omega
  | ⟨3, _⟩ => rfl

/-- The same for channel 1. -/
theorem chan1_idx (j : S16x1024x1024.Idx) : idx_main_v2 (idx_main_v3 j) = chan j 1 := by
  have h0 : (j 0).val < 16 := (j 0).isLt
  have h1 : (j 1).val < 1024 := (j 1).isLt
  have h2 : (j 2).val < 1024 := (j 2).isLt
  funext a
  apply Fin.ext
  match a with
  | ⟨0, _⟩ => show (((j 0).val * 1024 + (j 1).val) * 1024 + (j 2).val) / 1048576 = (j 0).val; omega
  | ⟨1, _⟩ => show (((j 0).val * 1024 + (j 1).val) * 1024 + (j 2).val) / 1024 % 1024 = (j 1).val; omega
  | ⟨2, _⟩ => show (((j 0).val * 1024 + (j 1).val) * 1024 + (j 2).val) / 1 % 1024 = (j 2).val; omega
  | ⟨3, _⟩ => rfl

/-- The squared channel-0 difference at a pixel is that pixel's error term. -/
theorem sq0_apply (x0 : Pred.Idx → EReal) (x1 : Pix.Idx → EReal) (j : Pix.Idx) :
    val_main_v5 (F := Ideal) x0 x1 j = err x0 x1 0 j := by
  rw [val_main_v5_apply, val_main_v4_apply, val_main_v1_apply, val_main_v0_apply, chan0_idx]
  rfl

/-- The same for channel 1. -/
theorem sq1_apply (x0 : Pred.Idx → EReal) (x2 : Pix.Idx → EReal) (j : Pix.Idx) :
    val_main_v9 (F := Ideal) x0 x2 j = err x0 x2 1 j := by
  rw [val_main_v9_apply, val_main_v8_apply, val_main_v3_apply, val_main_v2_apply, chan1_idx]
  rfl

/-- The reference's result is the specification. -/
theorem result_eq (x0 : Pred.Idx → EReal) (x1 x2 : Pix.Idx → EReal) (i : S_.Idx) :
    val_main_v12 (F := Ideal) x0 x1 x2 i = mse x0 x1 x2 := by
  rw [val_main_v12_apply, val_main_v7_apply, val_main_v11_apply, val_main_v6_apply, val_main_v10_apply]
  simp only [sq0_apply, sq1_apply, val_main_cst_apply, val_main_cst_1_apply, val_main_cst_0_apply,
    val_main_cst_2_apply, Ideal.addf_def, Ideal.hostDivf_def, Ideal.ofBits_def, Ideal.ofBits_zero_f32, div_npix]
  rfl

end Cert.ReferenceIdeal.RefSide

end
-- ==== Proof.lean ====
/-
  The kernel and the reference compute the same mean squared error.

  Inputs: predictions p[16, 1024, 1024, 2] (two channels per pixel) and targets c, a of shape [16, 1024, 1024]. With
  N = 16 · 1024 · 1024 = 2^24 pixels, the reference returns  (Σ (p₀ - c)²) / N + (Σ (p₁ - a)²) / N,  each sum over all
  pixels and started from zero. The kernel walks a 16 × 2 grid: image b, row tile h (512 rows). It keeps a one-word
  running total: reset to zero at h = 0, increased at every point by the tile's  Σ (p₀ - c)² + Σ (p₁ - a)², and at h = 1
  written to lane 0 of row b of a [16, 1, 128] array whose other lanes get zero. The program then adds up that array
  from zero and divides by N.

  Read at the extended reals (every operation exact, a quotient by N a product with 1/N) the two results are one
  number. The array's zeros contribute nothing; a sum over all pixels is the sum over the images of the two tiles' sums
  (every pixel is one position of one tile); sums regroup freely; and multiplication by the nonnegative real 1/N
  distributes over a sum of ANY two extended reals, so  (X + Y) / N = X / N + Y / N  holds with no assumption on the
  inputs: the precondition is not used by the value argument.

  The modules: Algebra (the specification `mse` and the arithmetic above, no program in sight); Pieces, Payload, Chain
  (what one grid point stores, as values: the running total after each point); KernelValue (the array the region leaves,
  the host's sum and quotient, the kernel program's run); RefSide (the reference's result is `mse`). The programs' runs
  and frames are the generated ones; the ideal pass rewrote nothing, so `preserves` has nothing to state.
-/
import proofs.«132276_j79061757985022_1_alg».proof.Defs
import proofs.«132276_j79061757985022_1_alg».proof.Proof.Gen.Kernel
import proofs.«132276_j79061757985022_1_alg».proof.Proof.Gen.Kernel.Frame
import proofs.«132276_j79061757985022_1_alg».proof.Proof.Gen.KernelIdeal
import proofs.«132276_j79061757985022_1_alg».proof.Proof.Gen.KernelIdeal.Frame
import proofs.«132276_j79061757985022_1_alg».proof.Proof.Gen.ReferenceIdeal
import proofs.«132276_j79061757985022_1_alg».proof.Proof.Gen.ReferenceIdeal.Run
import proofs.«132276_j79061757985022_1_alg».proof.Proof.Gen.ReferenceIdeal.Read
import proofs.«132276_j79061757985022_1_alg».proof.Proof.Gen.Pre_finite_inputs
import proofs.«132276_j79061757985022_1_alg».proof.Proof.KernelValue
import proofs.«132276_j79061757985022_1_alg».proof.Proof.RefSide
import Idealize.ShloMosaic.Adequacy
import Idealize.ShloMosaic.Init

noncomputable section

namespace Cert.Proof

open Idealize.ShloMosaic Idealize.SL.Sem

/-- The word-level kernel program runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments alone: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the mean squared error `mse` of the argument arrays, which agree. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v12_eq _ _ _).trans ?_
  funext i
  refine (Cert.ReferenceIdeal.RefSide.result_eq _ _ _ i).trans ?_
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
